-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64 .f32) (main_arg5 : FVec F S64x10 .f32) (main_arg6 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg5
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : FVec F S64x10 .f32) (main_arg6 : FVec F S10 .f32) (main_arg7 : IVec S2x600000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x64 : Shape := ⟨2, ![50000, 64]⟩
abbrev S5000x128 : Shape := ⟨2, ![5000, 128]⟩
abbrev S5000x64 : Shape := ⟨2, ![5000, 64]⟩
abbrev S650000x64 : Shape := ⟨2, ![650000, 64]⟩
abbrev S1x64 : Shape := ⟨2, ![1, 64]⟩
abbrev S50000x1 : Shape := ⟨2, ![50000, 1]⟩
abbrev S64x1 : Shape := ⟨2, ![64, 1]⟩
abbrev S1x10 : Shape := ⟨2, ![1, 10]⟩

abbrev nBuf : Space → Nat
  | .hbm => 106
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S2x600000, .i32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000, .i32⟩
  | .hbm, ⟨14, _⟩ => ⟨S650000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S50000x64, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x64, .f32⟩
  | .hbm, ⟨59, _⟩ => ⟨S650000x1, .f32⟩
  | .hbm, ⟨60, _⟩ => ⟨S650000x64, .f32⟩
  | .hbm, ⟨61, _⟩ => ⟨S650000x64, .f32⟩
  | .hbm, ⟨62, _⟩ => ⟨S_, .f32⟩
  | .hbm, ⟨63, _⟩ => ⟨S50000x64, .f32⟩
  | .hbm, ⟨64, _⟩ => ⟨S650000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x64, .f32⟩
  | .hbm, ⟨77, _⟩ => ⟨S650000x1, .f32⟩
  | .hbm, ⟨78, _⟩ => ⟨S650000x64, .f32⟩
  | .hbm, ⟨79, _⟩ => ⟨S650000x64, .f32⟩
  | .hbm, ⟨80, _⟩ => ⟨S_, .f32⟩
  | .hbm, ⟨81, _⟩ => ⟨S50000x64, .f32⟩
  | .hbm, ⟨82, _⟩ => ⟨S650000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S_, .f32⟩
  | .hbm, ⟨87, _⟩ => ⟨S64x64, .f32⟩
  | .hbm, ⟨88, _⟩ => ⟨S50000x1, .i32⟩
  | .hbm, ⟨89, _⟩ => ⟨S64x64, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S64, .f32⟩
  | .hbm, ⟨94, _⟩ => ⟨S50000x1, .i32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64x1, .f32⟩
  | .hbm, ⟨100, _⟩ => ⟨S64x64, .f32⟩
  | .hbm, ⟨101, _⟩ => ⟨S64x64, .f32⟩
  | .hbm, ⟨102, _⟩ => ⟨S64x10, .f32⟩
  | .hbm, ⟨103, _⟩ => ⟨S1x10, .f32⟩
  | .hbm, ⟨104, _⟩ => ⟨S64x10, .f32⟩
  | .hbm, ⟨105, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S5000x64_S64x64_S5000x64_1_0_0_1_n_n_wf : DotDims.WF S5000x64 S64x64 S5000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S50000x64 : Shape := ⟨2, ![50000, 64]⟩
abbrev S650000 : Shape := ⟨1, ![650000]⟩
abbrev S_ : Shape := ⟨0, ![]⟩
abbrev S650000x1 : Shape := ⟨2, ![650000, 1]⟩
abbrev S650000x64 : Shape := ⟨2, ![650000, 64]⟩
abbrev S1x64 : Shape := ⟨2, ![1, 64]⟩
abbrev S50000x1 : Shape := ⟨2, ![50000, 1]⟩
abbrev S64x1 : Shape := ⟨2, ![64, 1]⟩
abbrev S1x10 : Shape := ⟨2, ![1, 10]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x64, .f32⟩
  | 4 => ⟨S64, .f32⟩
  | 5 => ⟨S64x10, .f32⟩
  | 6 => ⟨S10, .f32⟩
  | 7 => ⟨S2x600000, .i32⟩
  | 8 => ⟨S50000, .i32⟩
  | 9 => ⟨S1x600000, .i32⟩
  | 10 => ⟨S600000, .i32⟩
  | 11 => ⟨S1x600000, .i32⟩
  | 12 => ⟨S600000, .i32⟩
  | 13 => ⟨S50000x64, .f32⟩
  | 14 => ⟨S50000, .i32⟩
  | 15 => ⟨S650000, .i32⟩
  | 16 => ⟨S650000, .i32⟩
  | 17 => ⟨S_, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x64, .f32⟩
  | 59 => ⟨S650000x1, .f32⟩
  | 60 => ⟨S650000x64, .f32⟩
  | 61 => ⟨S650000x64, .f32⟩
  | 62 => ⟨S_, .f32⟩
  | 63 => ⟨S50000x64, .f32⟩
  | 64 => ⟨S650000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S50000, .i32⟩
  | 74 => ⟨S650000, .i32⟩
  | 75 => ⟨S650000, .i32⟩
  | 76 => ⟨S_, .f32⟩
  | 77 => ⟨S650000, .f32⟩
  | 78 => ⟨S_, .f32⟩
  | 79 => ⟨S50000, .f32⟩
  | 80 => ⟨S650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S650000, .i32⟩
  | 92 => ⟨S650000, .i1⟩
  | 93 => ⟨S_, .i32⟩
  | 94 => ⟨S650000, .i32⟩
  | 95 => ⟨S650000, .i32⟩
  | 96 => ⟨S650000, .i32⟩
  | 97 => ⟨S650000x1, .i32⟩
  | 98 => ⟨S650000, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000, .f32⟩
  | 108 => ⟨S650000, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x64, .f32⟩
  | 118 => ⟨S650000x1, .f32⟩
  | 119 => ⟨S650000x64, .f32⟩
  | 120 => ⟨S650000x64, .f32⟩
  | 121 => ⟨S_, .f32⟩
  | 122 => ⟨S50000x64, .f32⟩
  | 123 => ⟨S650000x1, .i32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S50000x64, .f32⟩
  | 2 => ⟨S50000x64, .f32⟩
  | 3 => ⟨S_, .f32⟩
  | 4 => ⟨S64x64, .f32⟩
  | 5 => ⟨S50000x1, .i32⟩
  | 6 => ⟨S64x64, .f32⟩
  | 7 => ⟨S_, .f32⟩
  | 8 => ⟨S50000, .f32⟩
  | 9 => ⟨S_, .f32⟩
  | 10 => ⟨S64, .f32⟩
  | 11 => ⟨S50000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x64, .f32⟩
  | 18 => ⟨S64x64, .f32⟩
  | 19 => ⟨S64x10, .f32⟩
  | 20 => ⟨S1x10, .f32⟩
  | 21 => ⟨S64x10, .f32⟩
  | 22 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x128_S128x64_S50000x64_1_0_0_1_n_n_wf : DotDims.WF S50000x128 S128x64 S50000x64 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KernelRun.lean ====
/-
  The idealized kernel's run with its result named. @main is nine segments: stretches of host operations and
  three pipelined regions. The contents of every unscoped buffer at each segment boundary are a fold from the
  launch memory (`W0 … W9`): a host stretch applies its operations, a region replaces each of its arrays by what
  its write-backs leave. The launch theorem for such a program ends with every unscoped buffer at the last
  boundary's contents; read at the result buffer that is `W9 … main_v76`, and at an argument it is the launch
  contents, since nothing writes an argument.
-/
import proofs.«158230_j11974368821434_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the nine arguments end as launched. -/
theorem value_run : θ_run defs (onTc (τ := τ) (main (F := F))) ⟨m, fun _ => 0, ρ⟩ (fun r => ∀ c : Dev nD,
      r.2.mem ((c.tc : Thread nD τ).loc main_v76) = W9 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v76 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Hand

end
-- ==== Proof.Carry.lean ====
/-
  What the later segments of the idealized kernel's @main read of the contents at a segment boundary, and that
  each of these is carried unchanged through every later host stretch and region: the two edge-endpoint index
  vectors with their self loops, the symmetric degree normalisation of every edge, and the six arguments read
  after the first region. Each is one fixed function of the arguments: the endpoints and the normalisation are
  computed once, before the first region, by the same operations the reference applies to the edge list; no host
  operation after that and no region's write-back touches any of them.
-/
import proofs.«158230_j11974368821434_1_alg».proof.Proof.Gen.KernelIdeal.Frame
import proofs.«158230_j11974368821434_1_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg) (c : Dev nD)

/-- The contents `W` of a boundary hold, at the buffers later segments read, these functions of the arguments. -/
structure Carried (W : Valuation τ sig (Elt F)) : Prop where
  src : W (Proc.devRef .tc main_v5) = Cert.ReferenceIdeal.ReadP.val_main_v6 (F := F) (m ((c.tc : Thread nD τ).loc main_arg7))
  dst : W (Proc.devRef .tc main_v6) = Cert.ReferenceIdeal.ReadP.val_main_v7 (F := F) (m ((c.tc : Thread nD τ).loc main_arg7))
  nrm : W (Proc.devRef .tc main_v29) = Cert.ReferenceIdeal.ReadP.val_main_v30 (F := F) (m ((c.tc : Thread nD τ).loc main_arg7))
  a2 : W (Proc.devRef .tc main_arg2) = (m ((c.tc : Thread nD τ).loc main_arg2))
  a3 : W (Proc.devRef .tc main_arg3) = (m ((c.tc : Thread nD τ).loc main_arg3))
  a4 : W (Proc.devRef .tc main_arg4) = (m ((c.tc : Thread nD τ).loc main_arg4))
  a5 : W (Proc.devRef .tc main_arg5) = (m ((c.tc : Thread nD τ).loc main_arg5))
  a6 : W (Proc.devRef .tc main_arg6) = (m ((c.tc : Thread nD τ).loc main_arg6))
  a8 : W (Proc.devRef .tc main_arg8) = (m ((c.tc : Thread nD τ).loc main_arg8))

/-- Before the first region: the endpoints and the normalisation as the first three stretches compute them. -/
theorem carried_W3 : Carried m c (W3 m ρ c) where
  src := by
    show StableHlo.after hostOps0_2 (StableHlo.after hostOps0_1 (StableHlo.after hostOps0 (W0 m ρ c))) (Proc.devRef .tc main_v5) = _
    after_results_simp <;> rfl
  dst := by
    show StableHlo.after hostOps0_2 (StableHlo.after hostOps0_1 (StableHlo.after hostOps0 (W0 m ρ c))) (Proc.devRef .tc main_v6) = _
    after_results_simp <;> rfl
  nrm := by
    show StableHlo.after hostOps0_2 (StableHlo.after hostOps0_1 (StableHlo.after hostOps0 (W0 m ρ c))) (Proc.devRef .tc main_v29) = _
    after_results_simp <;> rfl
  a2 := by
    show StableHlo.after hostOps0_2 (StableHlo.after hostOps0_1 (StableHlo.after hostOps0 (W0 m ρ c))) (Proc.devRef .tc main_arg2) = _
    after_results_simp <;> rfl
  a3 := by
    show StableHlo.after hostOps0_2 (StableHlo.after hostOps0_1 (StableHlo.after hostOps0 (W0 m ρ c))) (Proc.devRef .tc main_arg3) = _
    after_results_simp <;> rfl
  a4 := by
    show StableHlo.after hostOps0_2 (StableHlo.after hostOps0_1 (StableHlo.after hostOps0 (W0 m ρ c))) (Proc.devRef .tc main_arg4) = _
    after_results_simp <;> rfl
  a5 := by
    show StableHlo.after hostOps0_2 (StableHlo.after hostOps0_1 (StableHlo.after hostOps0 (W0 m ρ c))) (Proc.devRef .tc main_arg5) = _
    after_results_simp <;> rfl
  a6 := by
    show StableHlo.after hostOps0_2 (StableHlo.after hostOps0_1 (StableHlo.after hostOps0 (W0 m ρ c))) (Proc.devRef .tc main_arg6) = _
    after_results_simp <;> rfl
  a8 := by
    show StableHlo.after hostOps0_2 (StableHlo.after hostOps0_1 (StableHlo.after hostOps0 (W0 m ρ c))) (Proc.devRef .tc main_arg8) = _
    after_results_simp <;> rfl

/-- No operation of `hostOps1` writes a carried buffer. -/
theorem carried_hostOps1 (V : Valuation τ sig (Elt F)) (h : Carried m c V) : Carried m c (StableHlo.after hostOps1 V) where
  src := (by after_results_simp : StableHlo.after hostOps1 V (Proc.devRef .tc main_v5) = V (Proc.devRef .tc main_v5)).trans h.src
  dst := (by after_results_simp : StableHlo.after hostOps1 V (Proc.devRef .tc main_v6) = V (Proc.devRef .tc main_v6)).trans h.dst
  nrm := (by after_results_simp : StableHlo.after hostOps1 V (Proc.devRef .tc main_v29) = V (Proc.devRef .tc main_v29)).trans h.nrm
  a2 := (by after_results_simp : StableHlo.after hostOps1 V (Proc.devRef .tc main_arg2) = V (Proc.devRef .tc main_arg2)).trans h.a2
  a3 := (by after_results_simp : StableHlo.after hostOps1 V (Proc.devRef .tc main_arg3) = V (Proc.devRef .tc main_arg3)).trans h.a3
  a4 := (by after_results_simp : StableHlo.after hostOps1 V (Proc.devRef .tc main_arg4) = V (Proc.devRef .tc main_arg4)).trans h.a4
  a5 := (by after_results_simp : StableHlo.after hostOps1 V (Proc.devRef .tc main_arg5) = V (Proc.devRef .tc main_arg5)).trans h.a5
  a6 := (by after_results_simp : StableHlo.after hostOps1 V (Proc.devRef .tc main_arg6) = V (Proc.devRef .tc main_arg6)).trans h.a6
  a8 := (by after_results_simp : StableHlo.after hostOps1 V (Proc.devRef .tc main_arg8) = V (Proc.devRef .tc main_arg8)).trans h.a8

/-- No operation of `hostOps2` writes a carried buffer. -/
theorem carried_hostOps2 (V : Valuation τ sig (Elt F)) (h : Carried m c V) : Carried m c (StableHlo.after hostOps2 V) where
  src := (by after_results_simp : StableHlo.after hostOps2 V (Proc.devRef .tc main_v5) = V (Proc.devRef .tc main_v5)).trans h.src
  dst := (by after_results_simp : StableHlo.after hostOps2 V (Proc.devRef .tc main_v6) = V (Proc.devRef .tc main_v6)).trans h.dst
  nrm := (by after_results_simp : StableHlo.after hostOps2 V (Proc.devRef .tc main_v29) = V (Proc.devRef .tc main_v29)).trans h.nrm
  a2 := (by after_results_simp : StableHlo.after hostOps2 V (Proc.devRef .tc main_arg2) = V (Proc.devRef .tc main_arg2)).trans h.a2
  a3 := (by after_results_simp : StableHlo.after hostOps2 V (Proc.devRef .tc main_arg3) = V (Proc.devRef .tc main_arg3)).trans h.a3
  a4 := (by after_results_simp : StableHlo.after hostOps2 V (Proc.devRef .tc main_arg4) = V (Proc.devRef .tc main_arg4)).trans h.a4
  a5 := (by after_results_simp : StableHlo.after hostOps2 V (Proc.devRef .tc main_arg5) = V (Proc.devRef .tc main_arg5)).trans h.a5
  a6 := (by after_results_simp : StableHlo.after hostOps2 V (Proc.devRef .tc main_arg6) = V (Proc.devRef .tc main_arg6)).trans h.a6
  a8 := (by after_results_simp : StableHlo.after hostOps2 V (Proc.devRef .tc main_arg8) = V (Proc.devRef .tc main_arg8)).trans h.a8

/-- No operation of `hostOps3` writes a carried buffer. -/
theorem carried_hostOps3 (V : Valuation τ sig (Elt F)) (h : Carried m c V) : Carried m c (StableHlo.after hostOps3 V) where
  src := (by after_results_simp : StableHlo.after hostOps3 V (Proc.devRef .tc main_v5) = V (Proc.devRef .tc main_v5)).trans h.src
  dst := (by after_results_simp : StableHlo.after hostOps3 V (Proc.devRef .tc main_v6) = V (Proc.devRef .tc main_v6)).trans h.dst
  nrm := (by after_results_simp : StableHlo.after hostOps3 V (Proc.devRef .tc main_v29) = V (Proc.devRef .tc main_v29)).trans h.nrm
  a2 := (by after_results_simp : StableHlo.after hostOps3 V (Proc.devRef .tc main_arg2) = V (Proc.devRef .tc main_arg2)).trans h.a2
  a3 := (by after_results_simp : StableHlo.after hostOps3 V (Proc.devRef .tc main_arg3) = V (Proc.devRef .tc main_arg3)).trans h.a3
  a4 := (by after_results_simp : StableHlo.after hostOps3 V (Proc.devRef .tc main_arg4) = V (Proc.devRef .tc main_arg4)).trans h.a4
  a5 := (by after_results_simp : StableHlo.after hostOps3 V (Proc.devRef .tc main_arg5) = V (Proc.devRef .tc main_arg5)).trans h.a5
  a6 := (by after_results_simp : StableHlo.after hostOps3 V (Proc.devRef .tc main_arg6) = V (Proc.devRef .tc main_arg6)).trans h.a6
  a8 := (by after_results_simp : StableHlo.after hostOps3 V (Proc.devRef .tc main_arg8) = V (Proc.devRef .tc main_arg8)).trans h.a8

/-- The first region writes back only its product. -/
theorem carried_W4 (h : Carried m c (W3 m ρ c)) : Carried m c (W4 m ρ c) where
  src := (W4_of_ne m ρ c main_v5 (by decide)).trans h.src
  dst := (W4_of_ne m ρ c main_v6 (by decide)).trans h.dst
  nrm := (W4_of_ne m ρ c main_v29 (by decide)).trans h.nrm
  a2 := (W4_of_ne m ρ c main_arg2 (by decide)).trans h.a2
  a3 := (W4_of_ne m ρ c main_arg3 (by decide)).trans h.a3
  a4 := (W4_of_ne m ρ c main_arg4 (by decide)).trans h.a4
  a5 := (W4_of_ne m ρ c main_arg5 (by decide)).trans h.a5
  a6 := (W4_of_ne m ρ c main_arg6 (by decide)).trans h.a6
  a8 := (W4_of_ne m ρ c main_arg8 (by decide)).trans h.a8

/-- The second region writes back only its product; its weight array is an input window's, left as entered. -/
theorem carried_W6 (h : Carried m c (W5 m ρ c)) : Carried m c (W6 m ρ c) where
  src := (W6_of_ne m ρ c main_v5 (by decide)).trans h.src
  dst := (W6_of_ne m ρ c main_v6 (by decide)).trans h.dst
  nrm := (W6_of_ne m ρ c main_v29 (by decide)).trans h.nrm
  a2 := (W6_of_ne m ρ c main_arg2 (by decide)).trans h.a2
  a3 := (W6_arr m ρ c 2).trans (((dat1 (V5 m ρ) c).arrAt_in 2 rfl _).trans ((A_eq1 (V5 m ρ) c 2).trans h.a3))
  a4 := (W6_of_ne m ρ c main_arg4 (by decide)).trans h.a4
  a5 := (W6_of_ne m ρ c main_arg5 (by decide)).trans h.a5
  a6 := (W6_of_ne m ρ c main_arg6 (by decide)).trans h.a6
  a8 := (W6_of_ne m ρ c main_arg8 (by decide)).trans h.a8

/-- The third region writes back only its activations. -/
theorem carried_W8 (h : Carried m c (W7 m ρ c)) : Carried m c (W8 m ρ c) where
  src := (W8_of_ne m ρ c main_v5 (by decide)).trans h.src
  dst := (W8_of_ne m ρ c main_v6 (by decide)).trans h.dst
  nrm := (W8_of_ne m ρ c main_v29 (by decide)).trans h.nrm
  a2 := (W8_of_ne m ρ c main_arg2 (by decide)).trans h.a2
  a3 := (W8_of_ne m ρ c main_arg3 (by decide)).trans h.a3
  a4 := (W8_of_ne m ρ c main_arg4 (by decide)).trans h.a4
  a5 := (W8_of_ne m ρ c main_arg5 (by decide)).trans h.a5
  a6 := (W8_of_ne m ρ c main_arg6 (by decide)).trans h.a6
  a8 := (W8_of_ne m ρ c main_arg8 (by decide)).trans h.a8

theorem carried_W5 : Carried m c (W5 m ρ c) := carried_hostOps1 m c _ (carried_W4 m ρ c (carried_W3 m ρ c))
theorem carried_W7 : Carried m c (W7 m ρ c) := carried_hostOps2 m c _ (carried_W6 m ρ c (carried_W5 m ρ c))
theorem carried_W9 : Carried m c (W9 m ρ c) := carried_hostOps3 m c _ (carried_W8 m ρ c (carried_W7 m ρ c))

/-- The first region's two inputs are the first two arguments as launched. -/
theorem W3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl
theorem W3_arg1 : W3 m ρ c (Proc.devRef .tc main_arg1) = (m ((c.tc : Thread nD τ).loc main_arg1)) := by
  show StableHlo.after hostOps0_2 (StableHlo.after hostOps0_1 (StableHlo.after hostOps0 (W0 m ρ c))) (Proc.devRef .tc main_arg1) = _
  after_results_simp <;> rfl

end Cert.KernelIdeal.Hand

end
-- ==== Proof.Blocks0.lean ====
/-
  Region 0: the first feature product. The grid has ten points; point t holds rows 5000·t … 5000·t + 4999 of the
  node features, all of the weights, and writes the same rows of the product. Entry (p, q) of a point's block is
  the sum over k of (row p of the block) · (column q of the weights): rounding to bf16 is the identity on extended
  reals and the accumulator is zero. Read through the block's rectangle this is rows 5000·t + p of the whole
  product, and the ten blocks cover the array, so the array ends holding the whole product x · W.
-/
import proofs.«158230_j11974368821434_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-- Entry (r, c) of the product of an [R, K] array by a [K, C] array, as a sum over the contracted axis. -/
def prod128 (a : S50000x128.Idx → EReal) (b : S128x64.Idx → EReal) : S50000x64.Idx → EReal :=
  fun i => ∑ k : Fin 128, a (ix2 ⟨(i 0).val, (i 0).isLt⟩ k) * b (ix2 k ⟨(i 1).val, (i 1).isLt⟩)

theorem lhs_dot_S5000x128_S128x64_S5000x64_1_0_0_1_n_n_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_dot_S5000x128_S128x64_S5000x64_1_0_0_1_n_n_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_dot_S5000x128_S128x64_S5000x64_1_0_0_1_n_n_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_dot_S5000x128_S128x64_S5000x64_1_0_0_1_n_n_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block's product at (p, q): the sum over k of the left block at (p, k) times the right block at (k, q). -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_dot_S5000x128_S128x64_S5000x64_1_0_0_1_n_n_0 _ _
    | ⟨1, _⟩ => exact (lhs_dot_S5000x128_S128x64_S5000x64_1_0_0_1_n_n_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_dot_S5000x128_S128x64_S5000x64_1_0_0_1_n_n_0 _ _).trans hk
    | ⟨1, _⟩ => exact rhs_dot_S5000x128_S128x64_S5000x64_1_0_0_1_n_n_1 _ _)
  rw [el, er]
  rfl

/-- A point's product block, entry by entry, is the whole product at the rows the block holds: `b` is the block's
    number, the left block is rows 5000·b … of the left array, the right block is the right array. -/
theorem block0 (a0 : S50000x128.Idx → EReal) (a1 : S128x64.Idx → EReal)
    (x0 : Vec Ideal S5000x128 .f32) (x1 : Vec Ideal S128x64 .f32) (b : Nat) (hb : b < 10)
    (h0 : ∀ (p : Fin 5000) (k : Fin 128), x0 (ix2 p k) = a0 (ix2 ⟨b * 5000 + p.val, by have := p.isLt; omega⟩ k))
    (h1 : ∀ (k : Fin 128) (q : Fin 64), x1 (ix2 k q) = a1 (ix2 k q))
    (j : S5000x64.Idx) (i : S50000x64.Idx) (hi0 : (i 0).val = b * 5000 + (j 0).val) (hi1 : (i 1).val = (j 1).val) :
    k0_pay1 (F := Ideal) x0 x1 j = prod128 a0 a1 i := by
  obtain ⟨p, q, rfl⟩ : ∃ (p : Fin 5000) (q : Fin 64), j = ix2 p q := ⟨j 0, j 1, eq_ix2 j⟩
  rw [pay0_apply]
  unfold prod128
  refine Finset.sum_congr rfl fun k _ => ?_
  rw [h0, h1]
  have e0 : (⟨(i 0).val, (i 0).isLt⟩ : Fin 50000) = ⟨b * 5000 + p.val, by have := p.isLt; omega⟩ := Fin.ext hi0
  have e1 : (⟨(i 1).val, (i 1).isLt⟩ : Fin 64) = q := Fin.ext hi1
  rw [e0, e1]

section Region
variable (V : (c : Dev nD) → (b : Ref sig .tc) → Buf (Elt Ideal) ((c : Thread nD τ).loc b))

/-- The printed index maps over the grid: the row windows sit at block (t, 0), the weights at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000·t … of the array the region finds. -/
theorem iblk0_0_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := idx0 t
  unfold iblk0
  rw [View.read_apply]
  show (V c main_arg0 : S50000x128.Idx → EReal) _ = _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weights' window holds the whole weight array at every point. -/
theorem iblk0_1_apply (c : Dev nD) (t : Fin cfg0.N) (y : S128x64.Idx) :
    (iblk0 V c 1 t : Vec Ideal S128x64 .f32) y = (V c main_arg1 : S128x64.Idx → EReal) y := by
  obtain ⟨-, -, e2, e3, -⟩ := idx0 t
  unfold iblk0
  rw [View.read_apply]
  show (V c main_arg1 : S128x64.Idx → EReal) _ = _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- What point t writes back is block t of the whole product. -/
theorem flushed0 (c : Dev nD) (t : Fin cfg0.N) :
    (dat0 V c).flushed 2 t = ((cfg0.win 2).blk t).view.read (Elt Ideal) (prod128 (V c main_arg0) (V c main_arg1)) := by
  have hN : cfg0.N = 10 := N_0
  have ht : t.val < 10 := by have := t.isLt; omega
  obtain ⟨-, -, -, -, e4, e5⟩ := idx0 t
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  funext j
  rw [View.read_apply]
  refine block0 (V c main_arg0) (V c main_arg1) (iblk0 V c 0 t) (iblk0 V c 1 t) t.val ht
    (fun p k => iblk0_0_apply V c t (ix2 p k) _ rfl rfl) (fun k q => iblk0_1_apply V c t (ix2 k q)) j _ ?_ ?_
  · show win0_2.index t 0 * 5000 + 1 * (j 0).val = t.val * 5000 + (j 0).val; rw [e4]; omega
  · show win0_2.index t 1 * 64 + 1 * (j 1).val = (j 1).val; rw [e5]; omega

/-- An index of the product array is in point t's block iff its row is among the block's 5000 rows. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The ten row blocks cover the array: row r is in block r / 5000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  rw [mem_blk0]
  intro a
  match a with
  | ⟨0, _⟩ => show win0_2.index t 0 * 5000 ≤ (i 0).val ∧ (i 0).val < win0_2.index t 0 * 5000 + 5000; rw [e4, ht]; omega
  | ⟨1, _⟩ => show win0_2.index t 1 * 64 ≤ (i 1).val ∧ (i 1).val < win0_2.index t 1 * 64 + 64; rw [e5]; omega

/-- After the region the product array holds the whole product of the two arrays the region found. -/
theorem final0 (c : Dev nD) : (dat0 V c).arrAt 2 cfg0.N = prod128 (V c main_arg0) (V c main_arg1) :=
  (dat0 V c).arrAt_eq_of_cover 2 (prod128 (V c main_arg0) (V c main_arg1)) (fun t _ => flushed0 V c t) (cover0)

end Region

end Cert.KernelIdeal.Hand

end
-- ==== Proof.Blocks1.lean ====
/-
  Region 1: the second layer's feature product, fused with the first layer's bias and rectifier. Point t holds rows
  5000·t … of the first aggregation, the bias as one row of 64, all of the second weights, and writes the same rows of
  the product. Entry (p, q) of a point's block is the sum over k of max(a(p, k) + bias(k), 0) · w(k, q): the shape casts
  in the body are of a shape to itself, the row broadcast repeats the bias down the rows, rounding to bf16 is the
  identity on extended reals and the accumulator is zero. The ten row blocks cover the array.
-/
import proofs.«158230_j11974368821434_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz2' : (![0, 0] : Fin 2 → Nat) = fun _ => 0 := funext fun a => by fin_cases a <;> rfl

/-- Entry (r, c) of the product of the rectified, biased [50000, 64] array by a [64, 64] array; the bias is one row. -/
def biasReluProd (a : S50000x64.Idx → EReal) (r : S1x64.Idx → EReal) (w : S64x64.Idx → EReal) : S50000x64.Idx → EReal :=
  fun i => ∑ k : Fin 64, max (a (ix2 ⟨(i 0).val, (i 0).isLt⟩ k) + r (ix2 (0 : Fin 1) k)) (Ideal.ofBits .f32 0x00000000#32)
    * w (ix2 k ⟨(i 1).val, (i 1).isLt⟩)

theorem lhs_dot_S5000x64_S64x64_S5000x64_1_0_0_1_n_n_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot_S5000x64_S64x64_S5000x64_1_0_0_1_n_n_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot_S5000x64_S64x64_S5000x64_1_0_0_1_n_n_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot_S5000x64_S64x64_S5000x64_1_0_0_1_n_n_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block's fused product at (p, q). -/
theorem pay1_apply (x0 : Vec Ideal S5000x64 .f32) (x1 : Vec Ideal S1x64 .f32) (x2 : Vec Ideal S64x64 .f32) (p : Fin 5000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_dot_S5000x64_S64x64_S5000x64_1_0_0_1_n_n_0 _ _
    | ⟨1, _⟩ => exact (lhs_dot_S5000x64_S64x64_S5000x64_1_0_0_1_n_n_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_dot_S5000x64_S64x64_S5000x64_1_0_0_1_n_n_0 _ _).trans hk
    | ⟨1, _⟩ => exact rhs_dot_S5000x64_S64x64_S5000x64_1_0_0_1_n_n_1 _ _)
  rw [el, er, shapeCast_self, shapeCast_self, shapeCast_self]
  show max (x0 (ix2 p k) + broadcastTo S5000x64 x1 broadcasts_S1x64_S5000x64 (ix2 p k)) (Ideal.ofBits .f32 0x00000000#32) * x2 (ix2 k q) = _
  rw [broadcastTo_1b_ab_apply]

/-- A point's fused product block, entry by entry, is the whole fused product at the rows the block holds. -/
theorem block1 (a : S50000x64.Idx → EReal) (r : S1x64.Idx → EReal) (w : S64x64.Idx → EReal)
    (x0 : Vec Ideal S5000x64 .f32) (x1 : Vec Ideal S1x64 .f32) (x2 : Vec Ideal S64x64 .f32) (b : Nat) (hb : b < 10)
    (h0 : ∀ (p : Fin 5000) (k : Fin 64), x0 (ix2 p k) = a (ix2 ⟨b * 5000 + p.val, by have := p.isLt; omega⟩ k))
    (h1 : ∀ (k : Fin 64), x1 (ix2 (0 : Fin 1) k) = r (ix2 (0 : Fin 1) k))
    (h2 : ∀ (k : Fin 64) (q : Fin 64), x2 (ix2 k q) = w (ix2 k q))
    (j : S5000x64.Idx) (i : S50000x64.Idx) (hi0 : (i 0).val = b * 5000 + (j 0).val) (hi1 : (i 1).val = (j 1).val) :
    k1_pay1 (F := Ideal) x0 x1 x2 j = biasReluProd a r w i := by
  obtain ⟨p, q, rfl⟩ : ∃ (p : Fin 5000) (q : Fin 64), j = ix2 p q := ⟨j 0, j 1, eq_ix2 j⟩
  rw [pay1_apply]
  unfold biasReluProd
  refine Finset.sum_congr rfl fun k _ => ?_
  rw [h0, h1, h2]
  have e0 : (⟨(i 0).val, (i 0).isLt⟩ : Fin 50000) = ⟨b * 5000 + p.val, by have := p.isLt; omega⟩ := Fin.ext hi0
  have e1 : (⟨(i 1).val, (i 1).isLt⟩ : Fin 64) = q := Fin.ext hi1
  rw [e0, e1]

section Region
variable (V : (c : Dev nD) → (b : Ref sig .tc) → Buf (Elt Ideal) ((c : Thread nD τ).loc b))

/-- The printed index maps over the grid: the row windows sit at block (t, 0), the bias row and the weights at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point t is rows 5000·t … of the aggregation the region finds. -/
theorem iblk1_0_apply (c : Dev nD) (t : Fin cfg1.N) (y : S5000x64.Idx) (i : S50000x64.Idx)
    (h0 : (i 0).val = t.val * 5000 + (y 0).val) (h1 : (i 1).val = (y 1).val) :
    (iblk1 V c 0 t : Vec Ideal S5000x64 .f32) y = (V c main_v43 : S50000x64.Idx → EReal) i := by
  obtain ⟨e0, e1, -⟩ := idx1 t
  unfold iblk1
  rw [View.read_apply]
  show (V c main_v43 : S50000x64.Idx → EReal) _ = _
  congr 1
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The bias window holds the whole bias row at every point. -/
theorem iblk1_1_apply (c : Dev nD) (t : Fin cfg1.N) (y : S1x64.Idx) :
    (iblk1 V c 1 t : Vec Ideal S1x64 .f32) y = (V c main_v44 : S1x64.Idx → EReal) y := by
  obtain ⟨-, -, e2, e3, -⟩ := idx1 t
  unfold iblk1
  rw [View.read_apply]
  show (V c main_v44 : S1x64.Idx → EReal) _ = _
  congr 1
  funext a
  apply Fin.ext
  match a with
  | ⟨0, _⟩ => show win1_1.index t 0 * 1 + 1 * (y 0).val = (y 0).val; rw [e2]; omega
  | ⟨1, _⟩ => show win1_1.index t 1 * 64 + 1 * (y 1).val = (y 1).val; rw [e3]; omega

/-- The weights' window holds the whole weight array at every point. -/
theorem iblk1_2_apply (c : Dev nD) (t : Fin cfg1.N) (y : S64x64.Idx) :
    (iblk1 V c 2 t : Vec Ideal S64x64 .f32) y = (V c main_arg3 : S64x64.Idx → EReal) y := by
  obtain ⟨-, -, -, -, e4, e5, -⟩ := idx1 t
  unfold iblk1
  rw [View.read_apply]
  show (V c main_arg3 : S64x64.Idx → EReal) _ = _
  congr 1
  funext a
  apply Fin.ext
  match a with
  | ⟨0, _⟩ => show win1_2.index t 0 * 64 + 1 * (y 0).val = (y 0).val; rw [e4]; omega
  | ⟨1, _⟩ => show win1_2.index t 1 * 64 + 1 * (y 1).val = (y 1).val; rw [e5]; omega

/-- What point t writes back is block t of the whole fused product. -/
theorem flushed1 (c : Dev nD) (t : Fin cfg1.N) :
    (dat1 V c).flushed 3 t = ((cfg1.win 3).blk t).view.read (Elt Ideal) (biasReluProd (V c main_v43) (V c main_v44) (V c main_arg3)) := by
  have hN : cfg1.N = 10 := N_1
  have ht : t.val < 10 := by have := t.isLt; omega
  obtain ⟨-, -, -, -, -, -, e6, e7⟩ := idx1 t
  show (cfg1.win 3).cut (grid1.coords t) ((dat1 V c).after 3 t) = _
  rw [after1_3]
  unfold out1_3
  rw [View.canon_unit_zero hz2']
  simp only [View.ld_unit_zero (S := S5000x64) hz2', View.ld_unit_zero (S := S1x64) hz2', View.ld_unit_zero (S := S64x64) hz2']
  funext j
  rw [View.read_apply]
  refine block1 (V c main_v43) (V c main_v44) (V c main_arg3) (iblk1 V c 0 t) (iblk1 V c 1 t) (iblk1 V c 2 t) t.val ht
    (fun p k => iblk1_0_apply V c t (ix2 p k) _ rfl rfl) (fun k => iblk1_1_apply V c t (ix2 (0 : Fin 1) k))
    (fun k q => iblk1_2_apply V c t (ix2 k q)) j _ ?_ ?_
  · show win1_3.index t 0 * 5000 + 1 * (j 0).val = t.val * 5000 + (j 0).val; rw [e6]; omega
  · show win1_3.index t 1 * 64 + 1 * (j 1).val = (j 1).val; rw [e7]; omega

/-- An index of the product array is in point t's block iff its row is among the block's 5000 rows. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The ten row blocks cover the array: row r is in block r / 5000. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx1 t
  refine ⟨t, flush1_3 t, ?_⟩
  rw [mem_blk1]
  intro a
  match a with
  | ⟨0, _⟩ => show win1_3.index t 0 * 5000 ≤ (i 0).val ∧ (i 0).val < win1_3.index t 0 * 5000 + 5000; rw [e6, ht]; omega
  | ⟨1, _⟩ => show win1_3.index t 1 * 64 ≤ (i 1).val ∧ (i 1).val < win1_3.index t 1 * 64 + 64; rw [e7]; omega

/-- After the region the product array holds the whole fused product of the three arrays the region found. -/
theorem final1 (c : Dev nD) : (dat1 V c).arrAt 3 cfg1.N = biasReluProd (V c main_v43) (V c main_v44) (V c main_arg3) :=
  (dat1 V c).arrAt_eq_of_cover 3 (biasReluProd (V c main_v43) (V c main_v44) (V c main_arg3)) (fun t _ => flushed1 V c t) (cover1)

end Region

end Cert.KernelIdeal.Hand

end
-- ==== Proof.Blocks2.lean ====
/-
  Region 2: the second layer's bias and rectifier. Point t holds rows 5000·t … of the second aggregation and the
  bias as one row of 64, and writes max(a(p, q) + bias(q), 0) at the same rows. The shape casts in the body are of a
  shape to itself and the row broadcast repeats the bias down the rows. The ten row blocks cover the array.
-/
import proofs.«158230_j11974368821434_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz2'' : (![0, 0] : Fin 2 → Nat) = fun _ => 0 := funext fun a => by fin_cases a <;> rfl

/-- The rectified, biased [50000, 64] array; the bias is one row. -/
def biasRelu (a : S50000x64.Idx → EReal) (r : S1x64.Idx → EReal) : S50000x64.Idx → EReal :=
  fun i => max (a i + r (ix2 (0 : Fin 1) ⟨(i 1).val, (i 1).isLt⟩)) (Ideal.ofBits .f32 0x00000000#32)

/-- A block's rectified, biased entry at (p, q). -/
theorem pay2_apply (x0 : Vec Ideal S5000x64 .f32) (x1 : Vec Ideal S1x64 .f32) (p : Fin 5000) (q : Fin 64) :
    k2_pay1 (F := Ideal) x0 x1 (ix2 p q) = max (x0 (ix2 p q) + x1 (ix2 (0 : Fin 1) q)) (Ideal.ofBits .f32 0x00000000#32) := by
  unfold k2_pay1
  rw [shapeCast_self, shapeCast_self, shapeCast_self]
  show max (x0 (ix2 p q) + broadcastTo S5000x64 x1 broadcasts_S1x64_S5000x64 (ix2 p q)) (Ideal.ofBits .f32 0x00000000#32) = _
  rw [broadcastTo_1b_ab_apply]

/-- A point's block, entry by entry, is the whole rectified, biased array at the rows the block holds. -/
theorem block2 (a : S50000x64.Idx → EReal) (r : S1x64.Idx → EReal)
    (x0 : Vec Ideal S5000x64 .f32) (x1 : Vec Ideal S1x64 .f32)
    (j : S5000x64.Idx) (i : S50000x64.Idx)
    (h0 : x0 j = a i) (h1 : ∀ (k : Fin 64), x1 (ix2 (0 : Fin 1) k) = r (ix2 (0 : Fin 1) k)) (hi1 : (i 1).val = (j 1).val) :
    k2_pay1 (F := Ideal) x0 x1 j = biasRelu a r i := by
  obtain ⟨p, q, rfl⟩ : ∃ (p : Fin 5000) (q : Fin 64), j = ix2 p q := ⟨j 0, j 1, eq_ix2 j⟩
  rw [pay2_apply]
  unfold biasRelu
  rw [h0, h1]
  have e1 : (⟨(i 1).val, (i 1).isLt⟩ : Fin 64) = q := Fin.ext hi1
  rw [e1]

section Region
variable (V : (c : Dev nD) → (b : Ref sig .tc) → Buf (Elt Ideal) ((c : Thread nD τ).loc b))

/-- The printed index maps over the grid: the row windows sit at block (t, 0), the bias row at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first window's block at point t is rows 5000·t … of the aggregation the region finds. -/
theorem iblk2_0_apply (c : Dev nD) (t : Fin cfg2.N) (y : S5000x64.Idx) (i : S50000x64.Idx)
    (h0 : (i 0).val = t.val * 5000 + (y 0).val) (h1 : (i 1).val = (y 1).val) :
    (iblk2 V c 0 t : Vec Ideal S5000x64 .f32) y = (V c main_v58 : S50000x64.Idx → EReal) i := by
  obtain ⟨e0, e1, -⟩ := idx2 t
  unfold iblk2
  rw [View.read_apply]
  show (V c main_v58 : S50000x64.Idx → EReal) _ = _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The bias window holds the whole bias row at every point. -/
theorem iblk2_1_apply (c : Dev nD) (t : Fin cfg2.N) (y : S1x64.Idx) :
    (iblk2 V c 1 t : Vec Ideal S1x64 .f32) y = (V c main_v59 : S1x64.Idx → EReal) y := by
  obtain ⟨-, -, e2, e3, -⟩ := idx2 t
  unfold iblk2
  rw [View.read_apply]
  show (V c main_v59 : S1x64.Idx → EReal) _ = _
  congr 1
  funext a
  apply Fin.ext
  match a with
  | ⟨0, _⟩ => show win2_1.index t 0 * 1 + 1 * (y 0).val = (y 0).val; rw [e2]; omega
  | ⟨1, _⟩ => show win2_1.index t 1 * 64 + 1 * (y 1).val = (y 1).val; rw [e3]; omega

/-- What point t writes back is block t of the whole rectified, biased array. -/
theorem flushed2 (c : Dev nD) (t : Fin cfg2.N) :
    (dat2 V c).flushed 2 t = ((cfg2.win 2).blk t).view.read (Elt Ideal) (biasRelu (V c main_v58) (V c main_v59)) := by
  obtain ⟨-, -, -, -, e4, e5⟩ := idx2 t
  show (cfg2.win 2).cut (grid2.coords t) ((dat2 V c).after 2 t) = _
  rw [after2_2]
  unfold out2_2
  rw [View.canon_unit_zero hz2'']
  simp only [View.ld_unit_zero (S := S5000x64) hz2'', View.ld_unit_zero (S := S1x64) hz2'']
  funext j
  rw [View.read_apply]
  refine block2 (V c main_v58) (V c main_v59) (iblk2 V c 0 t) (iblk2 V c 1 t) j _
    (iblk2_0_apply V c t j _ ?_ ?_) (fun k => iblk2_1_apply V c t (ix2 (0 : Fin 1) k)) ?_
  · show win2_2.index t 0 * 5000 + 1 * (j 0).val = t.val * 5000 + (j 0).val; rw [e4]; omega
  · show win2_2.index t 1 * 64 + 1 * (j 1).val = (j 1).val; rw [e5]; omega
  · show win2_2.index t 1 * 64 + 1 * (j 1).val = (j 1).val; rw [e5]; omega

/-- An index of the array is in point t's block iff its row is among the block's 5000 rows. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v60).slice (win2_2.rect t)).set ↔ _
  rw [View.set_slice_whole, Rect.mem_set_unit]
  exact Iff.rfl

/-- The ten row blocks cover the array: row r is in block r / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := idx2 t
  refine ⟨t, flush2_2 t, ?_⟩
  rw [mem_blk2]
  intro a
  match a with
  | ⟨0, _⟩ => show win2_2.index t 0 * 5000 ≤ (i 0).val ∧ (i 0).val < win2_2.index t 0 * 5000 + 5000; rw [e4, ht]; omega
  | ⟨1, _⟩ => show win2_2.index t 1 * 64 ≤ (i 1).val ∧ (i 1).val < win2_2.index t 1 * 64 + 64; rw [e5]; omega

/-- After the region the array holds the whole rectified, biased aggregation. -/
theorem final2 (c : Dev nD) : (dat2 V c).arrAt 2 cfg2.N = biasRelu (V c main_v58) (V c main_v59) :=
  (dat2 V c).arrAt_eq_of_cover 2 (biasRelu (V c main_v58) (V c main_v59)) (fun t _ => flushed2 V c t) (cover2)

end Region

end Cert.KernelIdeal.Hand

end
-- ==== Proof.Bridge.lean ====
/-
  The idealized kernel's result is the reference's function of the same arguments. Going through @main's segments in
  order, each buffer a later segment reads is identified with the reference's stage of the arguments:
    the first region's array is the product x · W1 (the reference's first `dot_general`, entry by entry the same sum);
    the host stretch after it gathers rows by source, scales by the edge normalisation and scatter-adds by target,
      operation for operation the reference's first aggregation;
    the second region's array is max(agg1 + b1, 0) · W2: the kernel adds the bias as a [1, 64] row it reshaped from
      b1, the reference as b1 broadcast along the rows — at column k both read b1(k);
    the next stretch is the reference's second aggregation (the reference computes the endpoints and the
      normalisation a second time, by the same operations of the same edge list);
    the third region's array is max(agg2 + b2, 0);
    the last stretch pools by graph, divides by the clamped counts and applies the output layer, operation for
      operation the reference's.
  No step uses a law of arithmetic: the two programs apply the same operations to the same values in the same order.
-/
import proofs.«158230_j11974368821434_1_alg».proof.Proof.Carry
import proofs.«158230_j11974368821434_1_alg».proof.Proof.Blocks0
import proofs.«158230_j11974368821434_1_alg».proof.Proof.Blocks1
import proofs.«158230_j11974368821434_1_alg».proof.Proof.Blocks2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg) (c : Dev nD)

/-- The first region leaves the product of the features by the first weights. -/
theorem xw1 : W4 m ρ c (Proc.devRef .tc main_v30) = Cert.ReferenceIdeal.ReadP.val_main_v4 (F := Ideal) (m ((c.tc : Thread nD τ).loc main_arg0)) (m ((c.tc : Thread nD τ).loc main_arg1)) := by
  refine (W4_arr m ρ c 2).trans ((final0 (V3 m ρ) c).trans ?_)
  have e0 := W3_arg0 m ρ c
  have e1 := W3_arg1 m ρ c
  show prod128 (W3 m ρ c (Proc.devRef .tc main_arg0)) (W3 m ρ c (Proc.devRef .tc main_arg1)) = _
  rw [e0, e1]
  funext i
  rw [Cert.ReferenceIdeal.ReadP.val_main_v4_apply]
  unfold prod128
  refine Finset.sum_congr rfl fun k _ => ?_
  have el : (ix2 ⟨(i 0).val, (i 0).isLt⟩ k : S50000x128.Idx) = Cert.ReferenceIdeal.ReadP.lidx_main_v4 i k :=
    funext fun a => by match a with | ⟨0, _⟩ => rfl | ⟨1, _⟩ => rfl
  have er : (ix2 k ⟨(i 1).val, (i 1).isLt⟩ : S128x64.Idx) = Cert.ReferenceIdeal.ReadP.ridx_main_v4 i k :=
    funext fun a => by match a with | ⟨0, _⟩ => rfl | ⟨1, _⟩ => rfl
  rw [el, er]

/-- The stretch after the first region leaves the first aggregation. -/
theorem agg1 : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg7)) := by
  have k := carried_W4 m ρ c (carried_W3 m ρ c)
  show StableHlo.after hostOps1 (W4 m ρ c) (Proc.devRef .tc main_v43) = _
  after_results_simp
  rw [k.src, k.dst, k.nrm, xw1 m ρ c]
  rfl

/-- … and the first bias as one row. -/
theorem bias1 : W5 m ρ c (Proc.devRef .tc main_v44) = (shapeCast S1x64 (m ((c.tc : Thread nD τ).loc main_arg2)) shapeCasts_S64_S1x64 : S1x64.Idx → EReal) := by
  have k := carried_W4 m ρ c (carried_W3 m ρ c)
  show StableHlo.after hostOps1 (W4 m ρ c) (Proc.devRef .tc main_v44) = _
  after_results_simp
  rw [k.a2]
  rfl

/-- The second region leaves the second layer's product. -/
theorem xw2 : W6 m ρ c (Proc.devRef .tc main_v45) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) := by
  refine (W6_arr m ρ c 3).trans ((final1 (V5 m ρ) c).trans ?_)
  show biasReluProd (W5 m ρ c (Proc.devRef .tc main_v43)) (W5 m ρ c (Proc.devRef .tc main_v44)) (W5 m ρ c (Proc.devRef .tc main_arg3)) = _
  rw [agg1 m ρ c, bias1 m ρ c, (carried_W5 m ρ c).a3]
  funext i
  rw [Cert.ReferenceIdeal.ReadP.val_main_v48_apply]
  unfold biasReluProd
  refine Finset.sum_congr rfl fun k _ => ?_
  have el : (ix2 ⟨(i 0).val, (i 0).isLt⟩ k : S50000x64.Idx) = Cert.ReferenceIdeal.ReadP.lidx_main_v48 i k :=
    funext fun a => by match a with | ⟨0, _⟩ => rfl | ⟨1, _⟩ => rfl
  have er : (ix2 k ⟨(i 1).val, (i 1).isLt⟩ : S64x64.Idx) = Cert.ReferenceIdeal.ReadP.ridx_main_v48 i k :=
    funext fun a => by match a with | ⟨0, _⟩ => rfl | ⟨1, _⟩ => rfl
  have e2 : Cert.ReferenceIdeal.ReadP.idx_main_v44 (Cert.ReferenceIdeal.ReadP.idx_main_v45 (Cert.ReferenceIdeal.ReadP.lidx_main_v48 i k)) = ix1 k :=
    funext fun a => by match a with | ⟨0, _⟩ => rfl
  rw [el, er, shapeCast_a_1a_apply, Cert.ReferenceIdeal.ReadP.val_main_v47_apply, Cert.ReferenceIdeal.ReadP.val_main_v46_apply, Cert.ReferenceIdeal.ReadP.val_main_v45_apply,
    Cert.ReferenceIdeal.ReadP.val_main_v44_apply, Cert.ReferenceIdeal.ReadP.val_main_call1_v0_apply, Cert.ReferenceIdeal.ReadP.val_main_call1_cst_apply, e2]
  rfl

/-- The stretch after the second region leaves the second aggregation. -/
theorem agg2 : W7 m ρ c (Proc.devRef .tc main_v58) = Cert.ReferenceIdeal.ReadP.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) := by
  have k := carried_W6 m ρ c (carried_W5 m ρ c)
  show StableHlo.after hostOps2 (W6 m ρ c) (Proc.devRef .tc main_v58) = _
  after_results_simp
  rw [k.src, k.dst, k.nrm, xw2 m ρ c]
  rfl

/-- … and the second bias as one row. -/
theorem bias2 : W7 m ρ c (Proc.devRef .tc main_v59) = (shapeCast S1x64 (m ((c.tc : Thread nD τ).loc main_arg4)) shapeCasts_S64_S1x64 : S1x64.Idx → EReal) := by
  have k := carried_W6 m ρ c (carried_W5 m ρ c)
  show StableHlo.after hostOps2 (W6 m ρ c) (Proc.devRef .tc main_v59) = _
  after_results_simp
  rw [k.a4]
  rfl

/-- The third region leaves the second layer's activations. -/
theorem act2 : W8 m ρ c (Proc.devRef .tc main_v60) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) := by
  refine (W8_arr m ρ c 2).trans ((final2 (V7 m ρ) c).trans ?_)
  show biasRelu (W7 m ρ c (Proc.devRef .tc main_v58)) (W7 m ρ c (Proc.devRef .tc main_v59)) = _
  rw [agg2 m ρ c, bias2 m ρ c]
  funext i
  have e2 : Cert.ReferenceIdeal.ReadP.idx_main_v88 (Cert.ReferenceIdeal.ReadP.idx_main_v89 i) = ix1 ⟨(i 1).val, (i 1).isLt⟩ :=
    funext fun a => by match a with | ⟨0, _⟩ => rfl
  unfold biasRelu
  rw [shapeCast_a_1a_apply, Cert.ReferenceIdeal.ReadP.val_main_v91_apply, Cert.ReferenceIdeal.ReadP.val_main_v90_apply, Cert.ReferenceIdeal.ReadP.val_main_v89_apply,
    Cert.ReferenceIdeal.ReadP.val_main_v88_apply, Cert.ReferenceIdeal.ReadP.val_main_call3_v0_apply, Cert.ReferenceIdeal.ReadP.val_main_call3_cst_apply, e2]
  rfl

/-- The last stretch leaves the reference's result. -/
theorem kernel_value : W9 m ρ c (Proc.devRef .tc main_v76) = Cert.ReferenceIdeal.ReadP.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have k := carried_W8 m ρ c (carried_W7 m ρ c)
  show StableHlo.after hostOps3 (W8 m ρ c) (Proc.devRef .tc main_v76) = _
  after_results_simp
  rw [k.a5, k.a6, k.a8, act2 m ρ c]
  rfl

end Cert.KernelIdeal.Hand

end
-- ==== Proof.lean ====
/-
  Two-layer graph convolution with mean pooling and a linear output layer, over 50000 nodes and 600000 edges:
  the kernel computes the two feature products and the two bias-and-rectifier steps in three pipelined regions of ten
  row blocks each and leaves the gathers, the scatter-adds, the pooling and the output layer to host operations; the
  reference is host operations throughout.
  On extended reals the two are the same function of the arguments, operation for operation: a block product into a
  zero accumulator is the rows of the whole product, rounding an operand to bf16 is the identity, and the bias enters
  as the same numbers whether reshaped to a row or broadcast along the rows (Proof/Blocks0–2, Proof/Bridge). The
  kernel's run names its result at the contents of the last segment boundary (Proof/KernelRun); the reference's run
  names its result as its operations' composed term.
  The kernel's idealization rewrote no operation, so `preserves` holds trivially. The precondition is never opened:
  no step of the comparison uses a law of arithmetic that could fail at an infinity.
-/
import proofs.«158230_j11974368821434_1_alg».proof.Defs
import proofs.«158230_j11974368821434_1_alg».proof.Proof.Gen.Kernel
import proofs.«158230_j11974368821434_1_alg».proof.Proof.Gen.Kernel.Skeleton
import proofs.«158230_j11974368821434_1_alg».proof.Proof.Gen.Kernel.Launch
import proofs.«158230_j11974368821434_1_alg».proof.Proof.Gen.Kernel.Points
import proofs.«158230_j11974368821434_1_alg».proof.Proof.Gen.Kernel.Frame
import proofs.«158230_j11974368821434_1_alg».proof.Proof.Gen.KernelIdeal
import proofs.«158230_j11974368821434_1_alg».proof.Proof.Gen.KernelIdeal.Skeleton
import proofs.«158230_j11974368821434_1_alg».proof.Proof.Gen.KernelIdeal.Launch
import proofs.«158230_j11974368821434_1_alg».proof.Proof.Gen.KernelIdeal.Points
import proofs.«158230_j11974368821434_1_alg».proof.Proof.Gen.KernelIdeal.Frame
import proofs.«158230_j11974368821434_1_alg».proof.Proof.Gen.ReferenceIdeal
import proofs.«158230_j11974368821434_1_alg».proof.Proof.Gen.Pre_finite_inputs
import proofs.«158230_j11974368821434_1_alg».proof.Proof.RefRun
import proofs.«158230_j11974368821434_1_alg».proof.Proof.RefRead
import proofs.«158230_j11974368821434_1_alg».proof.Proof.KernelRun
import proofs.«158230_j11974368821434_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result buffer at the reference's function of the arguments; the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v76),
    Cert.KernelIdeal.Hand.value_run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  show _ = Cert.KernelIdeal.Gen.W9 m ρ c (Proc.devRef .tc Cert.KernelIdeal.main_v76)
  rw [Cert.ReferenceIdeal.ReadP.val_main_v107_eq, Cert.KernelIdeal.Hand.kernel_value m ρ c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
